-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16x2048x1024 .f32) (main_arg1 : FVec F S16x2048x1024 .f32) (main_arg2 : FVec F S1024x1024 .f32) (main_arg3 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16x2048x1024 : Shape := ⟨3, ![16, 2048, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S16x2048x2048 : Shape := ⟨3, ![16, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S32768x1024, .f32⟩
  | .hbm, ⟨6, _⟩ => ⟨S32768x1024, .bf16⟩
  | .hbm, ⟨7, _⟩ => ⟨S32768x1024, .bf16⟩
  | .hbm, ⟨8, _⟩ => ⟨S16x2048x1024, .bf16⟩
  | .hbm, ⟨9, _⟩ => ⟨S16x2048x1024, .bf16⟩
  | .hbm, ⟨10, _⟩ => ⟨S16x2048x1024, .f32⟩
  | .hbm, ⟨11, _⟩ => ⟨S16x2048x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x2048x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x256x2048, .f32⟩
  | .local _ .vmem, ⟨17, _⟩ => ⟨S1x256x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  shapeCasts_S16x2048x1024_S32768x1024 : S16x2048x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S32768x1024_S16x2048x1024 : S32768x1024.ShapeCasts S16x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .bf16 = 32 ∨ (Rect.block (s := S32768x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S32768x1024.size a
  hwx0_4 : ∀ i : grid0.Coords, EltTy.bits .bf16 = 32 ∨ (Rect.block (s := S32768x1024) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S16x2048x1024.size a
  hwx1_0 : ∀ i : grid1.Coords, EltTy.bits .f32 = 32 ∨ (Rect.block (s := S16x2048x1024) S1x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S16x2048x1024.size a
  hwx1_1 : ∀ i : grid1.Coords, EltTy.bits .bf16 = 32 ∨ (Rect.block (s := S16x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S16x2048x1024.size a
  hwx1_2 : ∀ i : grid1.Coords, EltTy.bits .bf16 = 32 ∨ (Rect.block (s := S16x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S16x2048x1024.size a
  hwx1_3 : ∀ i : grid1.Coords, EltTy.bits .f32 = 32 ∨ (Rect.block (s := S16x2048x1024) S1x256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x2048.size a ≤ S16x2048x2048.size a
  hwx1_4 : ∀ i : grid1.Coords, EltTy.bits .f32 = 32 ∨ (Rect.block (s := S16x2048x2048) S1x256x2048.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1x256x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S1x256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S1x1x1024 : Shape := ⟨3, ![1, 1, 1024]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S16x2048x1024, .f32⟩
  | .hbm, ⟨5, _⟩ => ⟨S1x1x1024, .f32⟩
  | .hbm, ⟨6, _⟩ => ⟨S16x2048x1024, .f32⟩
  | .hbm, ⟨7, _⟩ => ⟨S16x2048x1024, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S1024x1024_S16x2048x1024_2_0_01_1_n_n_wf : DotDims.WF S16x2048x1024 S1024x1024 S16x2048x1024 [2] [0] [0, 1] [1] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.Spec.lean ====
/-
  The mathematics both programs compute, over the extended reals, coordinate by coordinate.

  With q the queries [16, 2048, 1024], x the values [16, 2048, 1024], W the dense kernel [1024, 1024] and β its
  bias [1024]:
    key   (b, v, u) = (Σ_d x(b, v, d) · W(d, u)) + β(u)
    score (b, q, v) = Σ_u q(b, q, u) · key(b, v, u)
    prob  (b, q, v) = softmax of the row score(b, q, ·) at v            (the alignment), where for a row s
          top  = the maximum of s, taken from the value the f32 word of −∞ denotes,
          e(v) = exp (s(v) − top),  mass = Σ_v e(v),  softmax(v) = e(v) / mass
    ctx   (b, q, d) = Σ_v prob(b, q, v) · x(b, v, d)                (the context)
  A change of float format is the identity here and a sum may be taken in any order, so a tiling of the rows,
  a contraction done block by block and an array seen through a reshape all leave these values as they are.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The word the maximum starts from on both sides (the f32 pattern of −∞); it is never evaluated. -/
abbrev negInf : EReal := Ideal.ofBits .f32 0xFF800000#32

variable (xq xv : FVec Ideal ⟨3, ![16, 2048, 1024]⟩ .f32) (xw : FVec Ideal ⟨2, ![1024, 1024]⟩ .f32)
  (xb : FVec Ideal ⟨1, ![1024]⟩ .f32)

/-- The projected key of batch `b`, row `v`, unit `u`. -/
def keyAt (b : Fin 16) (v : Fin 2048) (u : Fin 1024) : EReal :=
  (∑ d : Fin 1024, xv (ix3 b v d) * xw (ix2 d u)) + xb (ix1 u)

/-- The score of query row `q` against value row `v`. -/
def scoreAt (b : Fin 16) (q v : Fin 2048) : EReal :=
  ∑ u : Fin 1024, xq (ix3 b q u) * keyAt xv xw xb b v u

/-- The largest entry of a row of scores. -/
def rowTop (s : Fin 2048 → EReal) : EReal := (Finset.univ : Finset (Fin 2048)).fold max negInf s

/-- A row's shifted exponentials. -/
def rowExp (s : Fin 2048 → EReal) (v : Fin 2048) : EReal := Ideal.exp (s v - rowTop s)

/-- The sum of a row's shifted exponentials. -/
def rowMass (s : Fin 2048 → EReal) : EReal := ∑ v : Fin 2048, rowExp s v

/-- The softmax of a row of scores: its shifted exponentials divided by their sum. -/
def softmaxRow (s : Fin 2048 → EReal) (v : Fin 2048) : EReal := Ideal.div (rowExp s v) (rowMass s)

/-- The alignment: the softmax of a query row's scores. -/
def probAt (b : Fin 16) (q v : Fin 2048) : EReal :=
  softmaxRow (fun v' => scoreAt xq xv xw xb b q v') v

/-- The context: the alignment-weighted sum of the value rows. -/
def ctxAt (b : Fin 16) (q : Fin 2048) (d : Fin 1024) : EReal :=
  ∑ v : Fin 2048, probAt xq xv xw xb b q v * xv (ix3 b v d)

/-- The alignment as an array. -/
def alignment : FVec Ideal ⟨3, ![16, 2048, 2048]⟩ .f32 := fun i => probAt xq xv xw xb (i 0) (i 1) (i 2)

/-- The context as an array. -/
def context : FVec Ideal ⟨3, ![16, 2048, 1024]⟩ .f32 := fun i => ctxAt xq xv xw xb (i 0) (i 1) (i 2)

/-- The keys as an array. -/
def keys : FVec Ideal ⟨3, ![16, 2048, 1024]⟩ .f32 := fun i => keyAt xv xw xb (i 0) (i 1) (i 2)

/-- The alignment array of any queries `Q` against any keys `K`: each query row's scores against the key rows of its
    batch, through the row softmax. -/
def alignOf (Q K : FVec Ideal ⟨3, ![16, 2048, 1024]⟩ .f32) : FVec Ideal ⟨3, ![16, 2048, 2048]⟩ .f32 :=
  fun i => softmaxRow (fun v' => ∑ u : Fin 1024, Q (ix3 (i 0) (i 1) u) * K (ix3 (i 0) v' u)) (i 2)

/-- The context array of any queries, keys and values: the alignment-weighted sums of the value rows. -/
def ctxOf (Q K W : FVec Ideal ⟨3, ![16, 2048, 1024]⟩ .f32) : FVec Ideal ⟨3, ![16, 2048, 1024]⟩ .f32 :=
  fun i => ∑ v : Fin 2048, alignOf Q K (ix3 (i 0) (i 1) v) * W (ix3 (i 0) v (i 2))

/-- Against the projected keys these are the alignment and the context. -/
theorem alignOf_keys : alignOf xq (keys xv xw xb) = alignment xq xv xw xb := rfl
theorem ctxOf_keys : ctxOf xq (keys xv xw xb) xv = context xq xv xw xb := rfl

/-- A maximum that starts from `a` is at least `a`, so taking the larger of it and `a` once more changes nothing. -/
theorem max_fold_max {ι : Type} (s : Finset ι) (a : EReal) (f : ι → EReal) :
    max a (s.fold max a f) = s.fold max a f :=
  max_eq_right ((Finset.le_fold_max (s := s) (b := a) (f := f) (c := a)).2 (Or.inl le_rfl))

end Cert.Attn

end
-- ==== Proof.KernelRun.lean ====
/-
  The idealized kernel's run with its two result arrays named. The program is two pipelined regions between
  stretches of host operations; after the last region every unscoped buffer holds the contents the fold through
  @main leaves it (`Gen.W4`). The context array is output window 3 of the attention region and the alignment array
  is its output window 4, so each ends at what that region's write-backs leave: `(dat1 (V3 m ρ) c).arrAt w N`.
-/
import proofs.«140286_j266287972944_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The context array after the run: what the attention region's write-backs to its window 3 leave. -/
theorem W4_ctx (c : Dev nD) : W4 m ρ c (Proc.devRef .tc main_v5_0) = (dat1 (V3 m ρ) c).arrAt 3 cfg1.N :=
  W4_arr m ρ c 3

/-- The alignment array after the run: what the attention region's write-backs to its window 4 leave. -/
theorem W4_align (c : Dev nD) : W4 m ρ c (Proc.devRef .tc main_v5_1) = (dat1 (V3 m ρ) c).arrAt 4 cfg1.N :=
  W4_arr m ρ c 4

set_option backward.isDefEq.respectTransparency.types false in
/-- Every weakly fair execution of @main terminates, nothing faulting, with the two results at what the attention
    region leaves in its output windows and the four arguments as launched. -/
theorem run : θ_run defs (onTc (τ := τ) (main (F := F))) ⟨m, fun _ => 0, ρ⟩ (fun r => ∀ c : Dev nD,
      r.2.mem ((c.tc : Thread nD τ).loc main_v5_0) = (dat1 (V3 m ρ) c).arrAt 3 cfg1.N
      ∧ r.2.mem ((c.tc : Thread nD τ).loc main_v5_1) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5_0 (by decide))).trans (W4_ctx m ρ c),
       (h c _ (mem_uc main_v5_1 (by decide))).trans (W4_align m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Named

end
-- ==== Proof.ProjPayload.lean ====
/-
  The projection kernel's arithmetic read at an index. A grid point loads a [1024, 1024] block of value rows, the whole
  dense kernel and the bias, and stores two blocks: the rows unchanged (the narrowing to bf16 is the identity on the
  extended reals) and, at (r, u), the sum over d of row r's entry d times the kernel's entry (d, u), plus the bias at u.
-/
import proofs.«140286_j266287972944_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Proj

open Cert.KernelIdeal Cert.KernelIdeal.Gen Idealize.ShloMosaic Idealize.ShloMosaic.ValueIdx

/-- The left operand's row is the output's row. -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's column is the contraction coordinate. -/
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's row is the contraction coordinate. -/
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right operand's column is the output's column. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator, at (r, u): the sum over d of left (r, d) times right (d, u). -/
theorem dot_apply (l rr : FVec Ideal S1024x1024 .bf16) (r u : Fin 1024) :
    matmul dot_S1024x1024_S1024x1024_S1024x1024_1_0_0_1_n_n none l rr (constant S1024x1024 .f32 0x00000000#32) (ix2 r u)
      = ∑ d : Fin 1024, l (ix2 r d) * rr (ix2 d u) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r u) ((contrEquiv1 dot_S1024x1024_S1024x1024_S1024x1024_1_0_0_1_n_n 1024 rfl rfl).symm k) = ix2 r k := funext fun a => Fin.ext (by
    match a with
    | ⟨0, _⟩ => exact lhs_row _ _
    | ⟨1, _⟩ => exact (lhs_col _ _).trans hk)
  have er : dot_S1024x1024_S1024x1024_S1024x1024_1_0_0_1_n_n.rhsIdx (ix2 r u) ((contrEquiv1 dot_S1024x1024_S1024x1024_S1024x1024_1_0_0_1_n_n 1024 rfl rfl).symm k) = ix2 k u := funext fun a => Fin.ext (by
    match a with
    | ⟨0, _⟩ => exact (rhs_row _ _).trans hk
    | ⟨1, _⟩ => exact rhs_col _ _)
  rw [el, er]

/-- The stored copy of the rows is the rows. -/
theorem copy_eq (v0 : Vec Ideal S1024x1024 .f32) : k0_pay1 (F := Ideal) v0 = v0 := by
  unfold k0_pay1
  exact shapeCast_self v0 _

/-- The stored keys block at (r, u). -/
theorem keys_apply (v0 : Vec Ideal S1024x1024 .f32) (v3 : Vec Ideal S1024x1024 .bf16) (v6 : Vec Ideal S1024 .f32) (r u : Fin 1024) :
    k0_pay2 (F := Ideal) v0 v3 v6 (ix2 r u) = (∑ d : Fin 1024, v0 (ix2 r d) * v3 (ix2 d u)) + v6 (ix1 u) := by
  unfold k0_pay2
  rw [copy_eq, truncf_apply, addf_apply, shapeCast_self, dot_apply, broadcastTo_1b_ab_apply, shapeCast_a_1a_apply]

end Cert.KernelIdeal.Proj

end
-- ==== Proof.ProjValue.lean ====
/-
  What the projection region leaves in its two output arrays, as whole-array functions of the arrays it finds.
  The grid has 32 points; point t reads rows 1024·t … 1024·t + 1023 of the [32768, 1024] row array, the whole dense
  kernel and the bias, and writes the same rows of both outputs. The blocks tile the outputs, so after the region
  the copy array holds the row array itself and the keys array holds, at (r, u), the sum over d of row r's entry d
  times the kernel's (d, u), plus the bias at u.
-/
import proofs.«140286_j266287972944_2_alg».proof.Proof.Gen.KernelIdeal.Frame
import proofs.«140286_j266287972944_2_alg».proof.Proof.ProjPayload
import Idealize.ShloMosaic.Lib.Pipeline.Value

set_option maxRecDepth 16384

noncomputable section

namespace Cert.KernelIdeal.ProjArr

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The keys array as a function of the row array `y`, the dense kernel `w` and the bias `β`. -/
def keys2d (y : S32768x1024.Idx → EReal) (w : S1024x1024.Idx → EReal) (β : S1024.Idx → EReal) : S32768x1024.Idx → EReal :=
  fun i => (∑ d : Fin 1024, y (ix2 (i 0) d) * w (ix2 d (i 1))) + β (ix1 (i 1))

/-- The row array, the dense kernel and the bias as the region finds them, as functions into the extended reals. -/
abbrev rowsArr (c : Dev nD) : S32768x1024.Idx → EReal := V c main_v1
abbrev wArr (c : Dev nD) : S1024x1024.Idx → EReal := V c main_v0
abbrev biasArr (c : Dev nD) : S1024.Idx → EReal := V c main_arg3

/-- The printed index maps over the 32 points: the row array and both outputs move down one block per point, the
    dense kernel and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to the keys array is block `t` of `keys2d`. -/
theorem flushed3_eq (c : Dev nD) (t : Fin cfg0.N) :
    (dat0 V c).flushed 3 t = ((cfg0.win 3).blk t).view.read (Elt Ideal) (keys2d (rowsArr V c) (wArr V c) (biasArr V c)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1024) hz1]
  obtain ⟨f00, f01, f10, f11, f20, f30, f31, f40, f41⟩ := idx_facts t
  funext j
  obtain ⟨r, u, rfl⟩ : ∃ (r u : Fin 1024), j = ix2 r u := ⟨j 0, j 1, eq_ix2 j⟩
  refine (Proj.keys_apply (iblk0 V c 0 t) (iblk0 V c 1 t) (iblk0 V c 2 t) r u).trans ?_
  have e0 : ∀ d : Fin 1024, ((cfg0.win 0).blk t).view.emb (ix2 r d) = ix2 ((((cfg0.win 3).blk t).view.emb (ix2 r u)) 0) d := fun d => by
    funext a; apply Fin.ext
    match a with
    | ⟨0, _⟩ => show win0_0.index t (0 : Fin 2) * 1024 + 1 * r.val = win0_3.index t (0 : Fin 2) * 1024 + 1 * r.val; rw [f00, f30]
    | ⟨1, _⟩ => show win0_0.index t (1 : Fin 2) * 1024 + 1 * d.val = d.val; rw [f01]; omega
  have e1 : ∀ d : Fin 1024, ((cfg0.win 1).blk t).view.emb (ix2 d u) = ix2 d ((((cfg0.win 3).blk t).view.emb (ix2 r u)) 1) := fun d => by
    funext a; apply Fin.ext
    match a with
    | ⟨0, _⟩ => show win0_1.index t (0 : Fin 2) * 1024 + 1 * d.val = d.val; rw [f10]; omega
    | ⟨1, _⟩ => show win0_1.index t (1 : Fin 2) * 1024 + 1 * u.val = win0_3.index t (1 : Fin 2) * 1024 + 1 * u.val; rw [f11, f31]
  have e2 : ((cfg0.win 2).blk t).view.emb (ix1 u) = ix1 ((((cfg0.win 3).blk t).view.emb (ix2 r u)) 1) := by
    funext a; apply Fin.ext
    match a with
    | ⟨0, _⟩ => show win0_2.index t (0 : Fin 1) * 1024 + 1 * u.val = win0_3.index t (1 : Fin 2) * 1024 + 1 * u.val; rw [f20, f31]
  show (∑ d : Fin 1024, rowsArr V c (((cfg0.win 0).blk t).view.emb (ix2 r d)) * wArr V c (((cfg0.win 1).blk t).view.emb (ix2 d u)))
      + biasArr V c (((cfg0.win 2).blk t).view.emb (ix1 u)) = _
  rw [e2]
  simp only [e0, e1]
  rfl

/-- What point `t` writes back to the copy array is block `t` of the row array. -/
theorem flushed4_eq (c : Dev nD) (t : Fin cfg0.N) :
    (dat0 V c).flushed 4 t = ((cfg0.win 4).blk t).view.read (Elt Ideal) (rowsArr V c) := by
  show (cfg0.win 4).cut (grid0.coords t) ((dat0 V c).after 4 t) = _
  rw [after0_4]
  unfold out0_4
  rw [View.canon_unit_zero hz2]
  simp only [View.ld_unit_zero (S := S1024x1024) hz2]
  rw [Proj.copy_eq]
  obtain ⟨f00, f01, f10, f11, f20, f30, f31, f40, f41⟩ := idx_facts t
  funext j
  show rowsArr V c (((cfg0.win 0).blk t).view.emb j) = rowsArr V c (((cfg0.win 4).blk t).view.emb j)
  refine congrArg (rowsArr V c) (funext fun a => Fin.ext ?_)
  match a with
  | ⟨0, _⟩ => show win0_0.index t (0 : Fin 2) * 1024 + 1 * (j 0).val = win0_4.index t (0 : Fin 2) * 1024 + 1 * (j 0).val; rw [f00, f40]
  | ⟨1, _⟩ => show win0_0.index t (1 : Fin 2) * 1024 + 1 * (j 1).val = win0_4.index t (1 : Fin 2) * 1024 + 1 * (j 1).val; rw [f01, f41]

/-- An index of the keys array is in point `t`'s block iff each coordinate is in the block's range on its axis. -/
theorem mem_blk3 (t : Fin cfg0.N) (i : S32768x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2_0).slice (win0_3.rect t)).set ↔ _
  rw [View.set_slice_whole, Rect.mem_set_unit]
  exact Iff.rfl

/-- The same for the copy array. -/
theorem mem_blk4 (t : Fin cfg0.N) (i : S32768x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2_1).slice (win0_4.rect t)).set ↔ _
  rw [View.set_slice_whole, Rect.mem_set_unit]
  exact Iff.rfl

/-- Row r lies in the block of point r / 1024: the blocks cover the keys array. -/
theorem cover3 (i : S32768x1024.Idx) : ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 32 := N_0
  have ht : (i 0).val / 1024 < cfg0.N := by rw [hN]; omega
  obtain ⟨f00, f01, f10, f11, f20, f30, f31, f40, f41⟩ := idx_facts ⟨(i 0).val / 1024, ht⟩
  have g0 : win0_3.index ⟨(i 0).val / 1024, ht⟩ (0 : Fin 2) = (i 0).val / 1024 := f30
  refine ⟨⟨(i 0).val / 1024, ht⟩, flush0_3 _, ?_⟩
  rw [mem_blk3]
  intro a
  match a with
  | ⟨0, _⟩ => show win0_3.index ⟨(i 0).val / 1024, ht⟩ (0 : Fin 2) * 1024 ≤ (i 0).val ∧ (i 0).val < win0_3.index ⟨(i 0).val / 1024, ht⟩ (0 : Fin 2) * 1024 + 1024; rw [g0]; omega
  | ⟨1, _⟩ => show win0_3.index ⟨(i 0).val / 1024, ht⟩ (1 : Fin 2) * 1024 ≤ (i 1).val ∧ (i 1).val < win0_3.index ⟨(i 0).val / 1024, ht⟩ (1 : Fin 2) * 1024 + 1024; rw [f31]; omega

/-- The blocks cover the copy array. -/
theorem cover4 (i : S32768x1024.Idx) : ∃ t : Fin cfg0.N, (cfg0.win 4).flush t = true ∧ i ∈ ((cfg0.win 4).blk t).view.set := by
  have hi0 : (i 0).val < 32768 := (i 0).isLt
  have hi1 : (i 1).val < 1024 := (i 1).isLt
  have hN : cfg0.N = 32 := N_0
  have ht : (i 0).val / 1024 < cfg0.N := by rw [hN]; omega
  obtain ⟨f00, f01, f10, f11, f20, f30, f31, f40, f41⟩ := idx_facts ⟨(i 0).val / 1024, ht⟩
  have g0 : win0_4.index ⟨(i 0).val / 1024, ht⟩ (0 : Fin 2) = (i 0).val / 1024 := f40
  refine ⟨⟨(i 0).val / 1024, ht⟩, flush0_4 _, ?_⟩
  rw [mem_blk4]
  intro a
  match a with
  | ⟨0, _⟩ => show win0_4.index ⟨(i 0).val / 1024, ht⟩ (0 : Fin 2) * 1024 ≤ (i 0).val ∧ (i 0).val < win0_4.index ⟨(i 0).val / 1024, ht⟩ (0 : Fin 2) * 1024 + 1024; rw [g0]; omega
  | ⟨1, _⟩ => show win0_4.index ⟨(i 0).val / 1024, ht⟩ (1 : Fin 2) * 1024 ≤ (i 1).val ∧ (i 1).val < win0_4.index ⟨(i 0).val / 1024, ht⟩ (1 : Fin 2) * 1024 + 1024; rw [f41]; omega

/-- After the region the keys array is `keys2d` of the arrays the region found. -/
theorem final3 (c : Dev nD) : (dat0 V c).arrAt 3 cfg0.N = keys2d (rowsArr V c) (wArr V c) (biasArr V c) :=
  (dat0 V c).arrAt_eq_of_cover 3 _ (fun t _ => flushed3_eq V c t) cover3

/-- After the region the copy array is the row array. -/
theorem final4 (c : Dev nD) : (dat0 V c).arrAt 4 cfg0.N = rowsArr V c :=
  (dat0 V c).arrAt_eq_of_cover 4 _ (fun t _ => flushed4_eq V c t) cover4

end Cert.KernelIdeal.ProjArr

end
-- ==== Proof.LibKeepdims.lean ====
/-
  Layout lemmas for a row statistic kept as a column: a vector [a] seen as a column [a, 1], and a column [a, 1]
  repeated along the rows to [a, b], each read at an index written by coordinates. (The library reads the leading-unit-axis
  forms [a] → [1, a] and [1, b] → [a, b]; these are the trailing-unit-axis forms every `keepdims` reduction meets.)
-/
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.AttnPayload.lean ====
/-
  The attention kernel's arithmetic read at an index. A grid point loads a [1, 256, 1024] block of query rows and the
  whole [1, 2048, 1024] keys and values of its batch. Its scores at (q, v) are the sum over u of query (q, u) times key
  (v, u); each row of scores is turned into its softmax (the row's maximum taken from −∞, the shifted exponentials, their
  sum, the quotient), which is stored as the alignment block; the context block at (q, d) is the sum over v of the
  alignment (q, v) times value (v, d). The narrowings to bf16 are the identity on the extended reals.
-/
import proofs.«140286_j266287972944_2_alg».proof.Proof.Gen.KernelIdeal.Skeleton
import proofs.«140286_j266287972944_2_alg».proof.Proof.Spec
import proofs.«140286_j266287972944_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.AttnBody

open Cert.KernelIdeal Cert.KernelIdeal.Gen Idealize.ShloMosaic Idealize.ShloMosaic.ValueIdx Cert.Attn Cert.LibKeepdims

/-! ## The score product: query rows against key rows -/

theorem s_lhs_row (i : S256x2048.Idx) (k : dot_S256x1024_S2048x1024_S256x2048_1_1_0_0_n_n.contr.Idx) : (dot_S256x1024_S2048x1024_S256x2048_1_1_0_0_n_n.lhsIdx i k 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem s_lhs_col (i : S256x2048.Idx) (k : dot_S256x1024_S2048x1024_S256x2048_1_1_0_0_n_n.contr.Idx) : (dot_S256x1024_S2048x1024_S256x2048_1_1_0_0_n_n.lhsIdx i k 1).val = (k ⟨0, by decide⟩).val :=
  dot_S256x1024_S2048x1024_S256x2048_1_1_0_0_n_n.lhsIdx_val_of_single rfl i k
theorem s_rhs_row (i : S256x2048.Idx) (k : dot_S256x1024_S2048x1024_S256x2048_1_1_0_0_n_n.contr.Idx) : (dot_S256x1024_S2048x1024_S256x2048_1_1_0_0_n_n.rhsIdx i k 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem s_rhs_col (i : S256x2048.Idx) (k : dot_S256x1024_S2048x1024_S256x2048_1_1_0_0_n_n.contr.Idx) : (dot_S256x1024_S2048x1024_S256x2048_1_1_0_0_n_n.rhsIdx i k 1).val = (k ⟨0, by decide⟩).val :=
  dot_S256x1024_S2048x1024_S256x2048_1_1_0_0_n_n.rhsIdx_val_of_single rfl i k

/-- The score product into a zero accumulator at (q, v): the sum over u of left (q, u) times right (v, u). -/
theorem s_dot_apply (l : FVec Ideal S256x1024 .bf16) (r : FVec Ideal S2048x1024 .bf16) (q : Fin 256) (v : Fin 2048) :
    matmul dot_S256x1024_S2048x1024_S256x2048_1_1_0_0_n_n none l r (constant S256x2048 .f32 0x00000000#32) (ix2 q v) = ∑ u : Fin 1024, l (ix2 q u) * r (ix2 v u) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 q v) ((contrEquiv1 dot_S256x1024_S2048x1024_S256x2048_1_1_0_0_n_n 1024 rfl rfl).symm k) = ix2 q k := funext fun a => Fin.ext (by
    match a with
    | ⟨0, _⟩ => exact s_lhs_row _ _
    | ⟨1, _⟩ => exact (s_lhs_col _ _).trans hk)
  have er : dot_S256x1024_S2048x1024_S256x2048_1_1_0_0_n_n.rhsIdx (ix2 q v) ((contrEquiv1 dot_S256x1024_S2048x1024_S256x2048_1_1_0_0_n_n 1024 rfl rfl).symm k) = ix2 v k := funext fun a => Fin.ext (by
    match a with
    | ⟨0, _⟩ => exact s_rhs_row _ _
    | ⟨1, _⟩ => exact (s_rhs_col _ _).trans hk)
  rw [el, er]

/-- The block of scores of a grid point, from its loaded query block and keys block. -/
def blkScores (v0 : Vec Ideal S1x256x1024 .f32) (v3 : Vec Ideal S1x2048x1024 .bf16) : FVec Ideal S256x2048 .f32 :=
  have v1 : FVec Ideal S256x1024 .f32 := shapeCast S256x1024 v0 shapeCasts_S1x256x1024_S256x1024
  have v2 : FVec Ideal S256x1024 .bf16 := truncf .bf16 v1 bitsLt_bf16_f32
  have v4 : FVec Ideal S2048x1024 .bf16 := shapeCast S2048x1024 v3 shapeCasts_S1x2048x1024_S2048x1024
  have cst : FVec Ideal S256x2048 .f32 := constant S256x2048 .f32 0x00000000#32
  matmul dot_S256x1024_S2048x1024_S256x2048_1_1_0_0_n_n none v2 v4 cst

/-- A score at (q, v): the sum over u of query (0, q, u) times key (0, v, u). -/
theorem blkScores_apply (v0 : Vec Ideal S1x256x1024 .f32) (v3 : Vec Ideal S1x2048x1024 .bf16) (q : Fin 256) (v : Fin 2048) :
    blkScores v0 v3 (ix2 q v) = ∑ u : Fin 1024, v0 (ix3 (0 : Fin 1) q u) * v3 (ix3 (0 : Fin 1) v u) := by
  unfold blkScores
  rw [s_dot_apply]
  refine Finset.sum_congr rfl fun u _ => ?_
  rw [truncf_apply, shapeCast_1ab_ab_apply, shapeCast_1ab_ab_apply]

/-! ## The softmax of each row of a block of scores -/

/-- A row's maximum: the lane reduction at row q is the row's maximum taken from −∞. -/
theorem top_apply (s : FVec Ideal S256x2048 .f32) (q : Fin 256) :
    multiReduction .maximumf [1] S256 s 0xFF800000#32 reduces_S256x2048_S256 (.inl rfl) rfl (ix1 q)
      = rowTop (fun v => s (ix2 q v)) := by
  refine (Ideal.multiReduction_maximumf_single s 0xFF800000#32 reduces_S256x2048_S256 (.inl rfl) rfl (ix1 q)).trans ?_
  have e : ∀ v : Fin 2048, reduces_S256x2048_S256.lift (ix1 q) v = ix2 q v := fun v => funext fun a => Fin.ext (by
    match a with
    | ⟨0, _⟩ => rfl
    | ⟨1, _⟩ => rfl)
  unfold rowTop
  exact congrArg (Finset.univ.fold max negInf) (funext fun v => congrArg s (e v))

/-- A row's sum: the lane reduction at row q is the sum of the row. -/
theorem sum_apply (x : FVec Ideal S256x2048 .f32) (q : Fin 256) :
    multiReduction .add [1] S256 x 0x00000000#32 reduces_S256x2048_S256 (.inl rfl) rfl (ix1 q)
      = ∑ v : Fin 2048, x (ix2 q v) := by
  refine (Ideal.multiReduction_add_single x 0x00000000#32 reduces_S256x2048_S256 (.inl rfl) rfl (ix1 q)).trans ?_
  have e : ∀ v : Fin 2048, reduces_S256x2048_S256.lift (ix1 q) v = ix2 q v := fun v => funext fun a => Fin.ext (by
    match a with
    | ⟨0, _⟩ => rfl
    | ⟨1, _⟩ => rfl)
  exact Finset.sum_congr rfl fun v _ => congrArg x (e v)

theorem exp_apply {s : Shape} {φ : FTy} (x : FVec Ideal s φ) (i : s.Idx) : exp x i = Ideal.exp (x i) := rfl

/-- The shifted exponentials of a block of scores. -/
def expBlk (v5 : FVec Ideal S256x2048 .f32) : FVec Ideal S256x2048 .f32 :=
  have v6 : FVec Ideal S256 .f32 := multiReduction .maximumf [1] S256 v5 0xFF800000#32 reduces_S256x2048_S256 (.inl rfl) rfl
  have v7 : FVec Ideal S256x1 .f32 := shapeCast S256x1 v6 shapeCasts_S256_S256x1
  have v8 : FVec Ideal S256x2048 .f32 := broadcastTo S256x2048 v7 broadcasts_S256x1_S256x2048
  have v9 : FVec Ideal S256x2048 .f32 := subf v5 v8
  exp v9

theorem expBlk_apply (s : FVec Ideal S256x2048 .f32) (q : Fin 256) (v : Fin 2048) :
    expBlk s (ix2 q v) = rowExp (fun v' => s (ix2 q v')) v := by
  unfold expBlk
  rw [exp_apply, subf_apply, broadcastTo_a1_ab_apply, shapeCast_a_a1_apply, top_apply]
  rfl

/-- The softmax of each row of a block of scores. -/
def softmaxBlk (v5 : FVec Ideal S256x2048 .f32) : FVec Ideal S256x2048 .f32 :=
  have v10 : FVec Ideal S256x2048 .f32 := expBlk v5
  have v11 : FVec Ideal S256 .f32 := multiReduction .add [1] S256 v10 0x00000000#32 reduces_S256x2048_S256 (.inl rfl) rfl
  have v12 : FVec Ideal S256x1 .f32 := shapeCast S256x1 v11 shapeCasts_S256_S256x1
  have v13 : FVec Ideal S256x2048 .f32 := broadcastTo S256x2048 v12 broadcasts_S256x1_S256x2048
  divf v10 v13

theorem softmaxBlk_apply (s : FVec Ideal S256x2048 .f32) (q : Fin 256) (v : Fin 2048) :
    softmaxBlk s (ix2 q v) = softmaxRow (fun v' => s (ix2 q v')) v := by
  unfold softmaxBlk
  rw [divf_apply, broadcastTo_a1_ab_apply, shapeCast_a_a1_apply, sum_apply, expBlk_apply]
  unfold softmaxRow rowMass
  exact congrArg (Ideal.div _) (Finset.sum_congr rfl fun v' _ => expBlk_apply s q v')

/-- The alignment block a grid point computes is the softmax of its block of scores. -/
theorem probs_eq (v0 : Vec Ideal S1x256x1024 .f32) (v3 : Vec Ideal S1x2048x1024 .bf16) :
    k1_pay1 (F := Ideal) v0 v3 = softmaxBlk (blkScores v0 v3) := rfl

/-- The alignment block at (q, v): the softmax of the scores of query row q, at v. -/
theorem probs_apply (v0 : Vec Ideal S1x256x1024 .f32) (v3 : Vec Ideal S1x2048x1024 .bf16) (q : Fin 256) (v : Fin 2048) :
    k1_pay1 (F := Ideal) v0 v3 (ix2 q v)
      = softmaxRow (fun v' => ∑ u : Fin 1024, v0 (ix3 (0 : Fin 1) q u) * v3 (ix3 (0 : Fin 1) v' u)) v := by
  rw [probs_eq, softmaxBlk_apply]
  exact congrArg (fun s => softmaxRow s v) (funext fun v' => blkScores_apply v0 v3 q v')

/-- The stored alignment block, with its leading unit axis. -/
theorem align_apply (v0 : Vec Ideal S1x256x1024 .f32) (v3 : Vec Ideal S1x2048x1024 .bf16) (z : Fin 1) (q : Fin 256) (v : Fin 2048) :
    k1_pay2 (F := Ideal) v0 v3 (ix3 z q v) = k1_pay1 (F := Ideal) v0 v3 (ix2 q v) := by
  unfold k1_pay2
  exact shapeCast_ab_1ab_apply _ _ z q v

/-! ## The context product: alignment rows against value columns -/

theorem c_lhs_row (i : S256x1024.Idx) (k : dot_S256x2048_S2048x1024_S256x1024_1_0_0_1_n_n.contr.Idx) : (dot_S256x2048_S2048x1024_S256x1024_1_0_0_1_n_n.lhsIdx i k 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem c_lhs_col (i : S256x1024.Idx) (k : dot_S256x2048_S2048x1024_S256x1024_1_0_0_1_n_n.contr.Idx) : (dot_S256x2048_S2048x1024_S256x1024_1_0_0_1_n_n.lhsIdx i k 1).val = (k ⟨0, by decide⟩).val :=
  dot_S256x2048_S2048x1024_S256x1024_1_0_0_1_n_n.lhsIdx_val_of_single rfl i k
theorem c_rhs_row (i : S256x1024.Idx) (k : dot_S256x2048_S2048x1024_S256x1024_1_0_0_1_n_n.contr.Idx) : (dot_S256x2048_S2048x1024_S256x1024_1_0_0_1_n_n.rhsIdx i k 0).val = (k ⟨0, by decide⟩).val :=
  dot_S256x2048_S2048x1024_S256x1024_1_0_0_1_n_n.rhsIdx_val_of_single rfl i k
theorem c_rhs_col (i : S256x1024.Idx) (k : dot_S256x2048_S2048x1024_S256x1024_1_0_0_1_n_n.contr.Idx) : (dot_S256x2048_S2048x1024_S256x1024_1_0_0_1_n_n.rhsIdx i k 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The context product into a zero accumulator at (q, d): the sum over v of left (q, v) times right (v, d). -/
theorem c_dot_apply (l : FVec Ideal S256x2048 .bf16) (r : FVec Ideal S2048x1024 .bf16) (q : Fin 256) (d : Fin 1024) :
    matmul dot_S256x2048_S2048x1024_S256x1024_1_0_0_1_n_n none l r (constant S256x1024 .f32 0x00000000#32) (ix2 q d) = ∑ v : Fin 2048, l (ix2 q v) * r (ix2 v d) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 q d) ((contrEquiv1 dot_S256x2048_S2048x1024_S256x1024_1_0_0_1_n_n 2048 rfl rfl).symm k) = ix2 q k := funext fun a => Fin.ext (by
    match a with
    | ⟨0, _⟩ => exact c_lhs_row _ _
    | ⟨1, _⟩ => exact (c_lhs_col _ _).trans hk)
  have er : dot_S256x2048_S2048x1024_S256x1024_1_0_0_1_n_n.rhsIdx (ix2 q d) ((contrEquiv1 dot_S256x2048_S2048x1024_S256x1024_1_0_0_1_n_n 2048 rfl rfl).symm k) = ix2 k d := funext fun a => Fin.ext (by
    match a with
    | ⟨0, _⟩ => exact (c_rhs_row _ _).trans hk
    | ⟨1, _⟩ => exact c_rhs_col _ _)
  rw [el, er]

/-- The stored context block at (q, d): the sum over v of the alignment (q, v) times value (0, v, d). -/
theorem ctx_apply (v0 : Vec Ideal S1x256x1024 .f32) (v3 v18 : Vec Ideal S1x2048x1024 .bf16) (z : Fin 1) (q : Fin 256) (d : Fin 1024) :
    k1_pay3 (F := Ideal) v0 v3 v18 (ix3 z q d)
      = ∑ v : Fin 2048, k1_pay1 (F := Ideal) v0 v3 (ix2 q v) * v18 (ix3 (0 : Fin 1) v d) := by
  unfold k1_pay3
  rw [shapeCast_ab_1ab_apply, c_dot_apply]
  refine Finset.sum_congr rfl fun v _ => ?_
  rw [truncf_apply, shapeCast_1ab_ab_apply]

end Cert.KernelIdeal.AttnBody

end
-- ==== Proof.AttnValue.lean ====
/-
  What the attention region leaves in its two output arrays, as whole-array functions of the arrays it finds.
  The grid is 16 × 8: point t works on batch t / 8 and on query rows 256·(t % 8) … 256·(t % 8) + 255. It reads that block
  of query rows and the whole keys and values of its batch, and writes the same rows of the context and of the
  alignment. The blocks tile both outputs, so after the region the alignment array is the row softmax of the queries'
  scores against the keys and the context array its product with the values.
-/
import proofs.«140286_j266287972944_2_alg».proof.Proof.Gen.KernelIdeal.Frame
import proofs.«140286_j266287972944_2_alg».proof.Proof.AttnPayload
import Idealize.ShloMosaic.Lib.Pipeline.Value

set_option maxRecDepth 16384

noncomputable section

namespace Cert.KernelIdeal.AttnArr

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The queries, keys and values as the region finds them, as functions into the extended reals. -/
abbrev qArr (c : Dev nD) : S16x2048x1024.Idx → EReal := V c main_arg0
abbrev kArr (c : Dev nD) : S16x2048x1024.Idx → EReal := V c main_v3
abbrev vArr (c : Dev nD) : S16x2048x1024.Idx → EReal := V c main_v4

/-- The printed index maps over the 128 points: the queries and both outputs move with (batch, row block), the keys
    and the values with the batch alone. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0
    ∧ win1_4.index t (0 : Fin 3) = t.val / 8 ∧ win1_4.index t (1 : Fin 3) = t.val % 8 ∧ win1_4.index t (2 : Fin 3) = 0 :=
  (by decide +kernel : ∀ t : Fin grid1.N, _)

/-- What point `t` writes back to the alignment array is block `t` of the alignment of the queries against the keys. -/
theorem flushed4_eq (c : Dev nD) (t : Fin cfg1.N) :
    (dat1 V c).flushed 4 t = ((cfg1.win 4).blk t).view.read (Elt Ideal) (alignOf (qArr V c) (kArr V c)) := by
  show (cfg1.win 4).cut (grid1.coords t) ((dat1 V c).after 4 t) = _
  rw [after1_4]
  unfold out1_4
  rw [View.canon_unit_zero hz3]
  simp only [View.ld_unit_zero (S := S1x256x1024) hz3, View.ld_unit_zero (S := S1x2048x1024) hz3]
  obtain ⟨f00, f01, f02, f10, f11, f12, f20, f21, f22, f30, f31, f32, f40, f41, f42⟩ := idx_facts t
  funext j
  obtain ⟨z, q, v, rfl⟩ : ∃ (z : Fin 1) (q : Fin 256) (v : Fin 2048), j = ix3 z q v := ⟨j 0, j 1, j 2, eq_ix3 j⟩
  have hz : z.val = 0 := by omega
  refine (AttnBody.align_apply (iblk1 V c 0 t) (iblk1 V c 1 t) z q v).trans ((AttnBody.probs_apply (iblk1 V c 0 t) (iblk1 V c 1 t) q v).trans ?_)
  have e0 : ∀ u : Fin 1024, ((cfg1.win 0).blk t).view.emb (ix3 (0 : Fin 1) q u)
      = ix3 ((((cfg1.win 4).blk t).view.emb (ix3 z q v)) 0) ((((cfg1.win 4).blk t).view.emb (ix3 z q v)) 1) u := fun u => by
    funext a; apply Fin.ext
    match a with
    | ⟨0, _⟩ => show win1_0.index t (0 : Fin 3) * 1 + 1 * 0 = win1_4.index t (0 : Fin 3) * 1 + 1 * z.val; rw [f00, f40, hz]
    | ⟨1, _⟩ => show win1_0.index t (1 : Fin 3) * 256 + 1 * q.val = win1_4.index t (1 : Fin 3) * 256 + 1 * q.val; rw [f01, f41]
    | ⟨2, _⟩ => show win1_0.index t (2 : Fin 3) * 1024 + 1 * u.val = u.val; rw [f02]; omega
  have e1 : ∀ (v' : Fin 2048) (u : Fin 1024), ((cfg1.win 1).blk t).view.emb (ix3 (0 : Fin 1) v' u)
      = ix3 ((((cfg1.win 4).blk t).view.emb (ix3 z q v)) 0) v' u := fun v' u => by
    funext a; apply Fin.ext
    match a with
    | ⟨0, _⟩ => show win1_1.index t (0 : Fin 3) * 1 + 1 * 0 = win1_4.index t (0 : Fin 3) * 1 + 1 * z.val; rw [f10, f40, hz]
    | ⟨1, _⟩ => show win1_1.index t (1 : Fin 3) * 2048 + 1 * v'.val = v'.val; rw [f11]; omega
    | ⟨2, _⟩ => show win1_1.index t (2 : Fin 3) * 1024 + 1 * u.val = u.val; rw [f12]; omega
  have e2 : (((cfg1.win 4).blk t).view.emb (ix3 z q v)) 2 = v := by
    apply Fin.ext
    show win1_4.index t (2 : Fin 3) * 2048 + 1 * v.val = v.val
    rw [f42]; omega
  show softmaxRow (fun v' => ∑ u : Fin 1024, qArr V c (((cfg1.win 0).blk t).view.emb (ix3 (0 : Fin 1) q u)) * kArr V c (((cfg1.win 1).blk t).view.emb (ix3 (0 : Fin 1) v' u))) v
    = alignOf (qArr V c) (kArr V c) (((cfg1.win 4).blk t).view.emb (ix3 z q v))
  unfold alignOf
  rw [e2]
  refine congrArg (fun s => softmaxRow s v) (funext fun v' => Finset.sum_congr rfl fun u _ => ?_)
  rw [e0, e1]
  rfl

/-- What point `t` writes back to the context array is block `t` of the context of the queries, keys and values. -/
theorem flushed3_eq (c : Dev nD) (t : Fin cfg1.N) :
    (dat1 V c).flushed 3 t = ((cfg1.win 3).blk t).view.read (Elt Ideal) (ctxOf (qArr V c) (kArr V c) (vArr V c)) := by
  show (cfg1.win 3).cut (grid1.coords t) ((dat1 V c).after 3 t) = _
  rw [after1_3]
  unfold out1_3
  rw [View.canon_unit_zero hz3]
  simp only [View.ld_unit_zero (S := S1x256x1024) hz3, View.ld_unit_zero (S := S1x2048x1024) hz3]
  obtain ⟨f00, f01, f02, f10, f11, f12, f20, f21, f22, f30, f31, f32, f40, f41, f42⟩ := idx_facts t
  funext j
  obtain ⟨z, q, d, rfl⟩ : ∃ (z : Fin 1) (q : Fin 256) (d : Fin 1024), j = ix3 z q d := ⟨j 0, j 1, j 2, eq_ix3 j⟩
  have hz : z.val = 0 := by omega
  refine (AttnBody.ctx_apply (iblk1 V c 0 t) (iblk1 V c 1 t) (iblk1 V c 2 t) z q d).trans ?_
  have e0 : ∀ u : Fin 1024, ((cfg1.win 0).blk t).view.emb (ix3 (0 : Fin 1) q u)
      = ix3 ((((cfg1.win 3).blk t).view.emb (ix3 z q d)) 0) ((((cfg1.win 3).blk t).view.emb (ix3 z q d)) 1) u := fun u => by
    funext a; apply Fin.ext
    match a with
    | ⟨0, _⟩ => show win1_0.index t (0 : Fin 3) * 1 + 1 * 0 = win1_3.index t (0 : Fin 3) * 1 + 1 * z.val; rw [f00, f30, hz]
    | ⟨1, _⟩ => show win1_0.index t (1 : Fin 3) * 256 + 1 * q.val = win1_3.index t (1 : Fin 3) * 256 + 1 * q.val; rw [f01, f31]
    | ⟨2, _⟩ => show win1_0.index t (2 : Fin 3) * 1024 + 1 * u.val = u.val; rw [f02]; omega
  have e1 : ∀ (v' : Fin 2048) (u : Fin 1024), ((cfg1.win 1).blk t).view.emb (ix3 (0 : Fin 1) v' u)
      = ix3 ((((cfg1.win 3).blk t).view.emb (ix3 z q d)) 0) v' u := fun v' u => by
    funext a; apply Fin.ext
    match a with
    | ⟨0, _⟩ => show win1_1.index t (0 : Fin 3) * 1 + 1 * 0 = win1_3.index t (0 : Fin 3) * 1 + 1 * z.val; rw [f10, f30, hz]
    | ⟨1, _⟩ => show win1_1.index t (1 : Fin 3) * 2048 + 1 * v'.val = v'.val; rw [f11]; omega
    | ⟨2, _⟩ => show win1_1.index t (2 : Fin 3) * 1024 + 1 * u.val = u.val; rw [f12]; omega
  have e2 : ∀ v' : Fin 2048, ((cfg1.win 2).blk t).view.emb (ix3 (0 : Fin 1) v' d)
      = ix3 ((((cfg1.win 3).blk t).view.emb (ix3 z q d)) 0) v' ((((cfg1.win 3).blk t).view.emb (ix3 z q d)) 2) := fun v' => by
    funext a; apply Fin.ext
    match a with
    | ⟨0, _⟩ => show win1_2.index t (0 : Fin 3) * 1 + 1 * 0 = win1_3.index t (0 : Fin 3) * 1 + 1 * z.val; rw [f20, f30, hz]
    | ⟨1, _⟩ => show win1_2.index t (1 : Fin 3) * 2048 + 1 * v'.val = v'.val; rw [f21]; omega
    | ⟨2, _⟩ => show win1_2.index t (2 : Fin 3) * 1024 + 1 * d.val = win1_3.index t (2 : Fin 3) * 1024 + 1 * d.val; rw [f22, f32]
  show (∑ v' : Fin 2048, k1_pay1 (F := Ideal) (iblk1 V c 0 t) (iblk1 V c 1 t) (ix2 q v') * vArr V c (((cfg1.win 2).blk t).view.emb (ix3 (0 : Fin 1) v' d)))
    = ctxOf (qArr V c) (kArr V c) (vArr V c) (((cfg1.win 3).blk t).view.emb (ix3 z q d))
  unfold ctxOf alignOf
  refine Finset.sum_congr rfl fun v' _ => ?_
  rw [AttnBody.probs_apply, e2]
  refine congrArg (fun s => softmaxRow s v' * vArr V c (ix3 ((((cfg1.win 3).blk t).view.emb (ix3 z q d)) 0) v' ((((cfg1.win 3).blk t).view.emb (ix3 z q d)) 2))) (funext fun v'' => Finset.sum_congr rfl fun u _ => ?_)
  show qArr V c (((cfg1.win 0).blk t).view.emb (ix3 (0 : Fin 1) q u)) * kArr V c (((cfg1.win 1).blk t).view.emb (ix3 (0 : Fin 1) v'' u)) = _
  rw [e0, e1]
  rfl

/-- An index of the context array is in point `t`'s block iff each coordinate is in the block's range on its axis. -/
theorem mem_blk3 (t : Fin cfg1.N) (i : S16x2048x1024.Idx) :
    i ∈ ((cfg1.win 3).blk t).view.set ↔ ∀ a : Fin 3, win1_3.index t a * S1x256x1024.size a ≤ (i a).val ∧ (i a).val < win1_3.index t a * S1x256x1024.size a + S1x256x1024.size a := by
  show i ∈ ((View.whole main_v5_0).slice (win1_3.rect t)).set ↔ _
  rw [View.set_slice_whole, Rect.mem_set_unit]
  exact Iff.rfl

/-- The same for the alignment array. -/
theorem mem_blk4 (t : Fin cfg1.N) (i : S16x2048x2048.Idx) :
    i ∈ ((cfg1.win 4).blk t).view.set ↔ ∀ a : Fin 3, win1_4.index t a * S1x256x2048.size a ≤ (i a).val ∧ (i a).val < win1_4.index t a * S1x256x2048.size a + S1x256x2048.size a := by
  show i ∈ ((View.whole main_v5_1).slice (win1_4.rect t)).set ↔ _
  rw [View.set_slice_whole, Rect.mem_set_unit]
  exact Iff.rfl

/-- Row (b, r) lies in the block of point 8·b + r / 256: the blocks cover the context array. -/
theorem cover3 (i : S16x2048x1024.Idx) : ∃ t : Fin cfg1.N, (cfg1.win 3).flush t = true ∧ i ∈ ((cfg1.win 3).blk t).view.set := by
  have hi0 : (i 0).val < 16 := (i 0).isLt
  have hi1 : (i 1).val < 2048 := (i 1).isLt
  have hi2 : (i 2).val < 1024 := (i 2).isLt
  have hN : cfg1.N = 128 := N_1
  have ht : (i 0).val * 8 + (i 1).val / 256 < cfg1.N := by rw [hN]; omega
  obtain ⟨f00, f01, f02, f10, f11, f12, f20, f21, f22, f30, f31, f32, f40, f41, f42⟩ := idx_facts ⟨(i 0).val * 8 + (i 1).val / 256, ht⟩
  have g0 : win1_3.index ⟨(i 0).val * 8 + (i 1).val / 256, ht⟩ (0 : Fin 3) = ((i 0).val * 8 + (i 1).val / 256) / 8 := f30
  have g1 : win1_3.index ⟨(i 0).val * 8 + (i 1).val / 256, ht⟩ (1 : Fin 3) = ((i 0).val * 8 + (i 1).val / 256) % 8 := f31
  refine ⟨⟨(i 0).val * 8 + (i 1).val / 256, ht⟩, flush1_3 _, ?_⟩
  rw [mem_blk3]
  intro a
  match a with
  | ⟨0, _⟩ => show win1_3.index ⟨(i 0).val * 8 + (i 1).val / 256, ht⟩ (0 : Fin 3) * 1 ≤ (i 0).val ∧ (i 0).val < win1_3.index ⟨(i 0).val * 8 + (i 1).val / 256, ht⟩ (0 : Fin 3) * 1 + 1; rw [g0]; omega
  | ⟨1, _⟩ => show win1_3.index ⟨(i 0).val * 8 + (i 1).val / 256, ht⟩ (1 : Fin 3) * 256 ≤ (i 1).val ∧ (i 1).val < win1_3.index ⟨(i 0).val * 8 + (i 1).val / 256, ht⟩ (1 : Fin 3) * 256 + 256; rw [g1]; omega
  | ⟨2, _⟩ => show win1_3.index ⟨(i 0).val * 8 + (i 1).val / 256, ht⟩ (2 : Fin 3) * 1024 ≤ (i 2).val ∧ (i 2).val < win1_3.index ⟨(i 0).val * 8 + (i 1).val / 256, ht⟩ (2 : Fin 3) * 1024 + 1024; rw [f32]; omega

/-- The blocks cover the alignment array. -/
theorem cover4 (i : S16x2048x2048.Idx) : ∃ t : Fin cfg1.N, (cfg1.win 4).flush t = true ∧ i ∈ ((cfg1.win 4).blk t).view.set := by
  have hi0 : (i 0).val < 16 := (i 0).isLt
  have hi1 : (i 1).val < 2048 := (i 1).isLt
  have hi2 : (i 2).val < 2048 := (i 2).isLt
  have hN : cfg1.N = 128 := N_1
  have ht : (i 0).val * 8 + (i 1).val / 256 < cfg1.N := by rw [hN]; omega
  obtain ⟨f00, f01, f02, f10, f11, f12, f20, f21, f22, f30, f31, f32, f40, f41, f42⟩ := idx_facts ⟨(i 0).val * 8 + (i 1).val / 256, ht⟩
  have g0 : win1_4.index ⟨(i 0).val * 8 + (i 1).val / 256, ht⟩ (0 : Fin 3) = ((i 0).val * 8 + (i 1).val / 256) / 8 := f40
  have g1 : win1_4.index ⟨(i 0).val * 8 + (i 1).val / 256, ht⟩ (1 : Fin 3) = ((i 0).val * 8 + (i 1).val / 256) % 8 := f41
  refine ⟨⟨(i 0).val * 8 + (i 1).val / 256, ht⟩, flush1_4 _, ?_⟩
  rw [mem_blk4]
  intro a
  match a with
  | ⟨0, _⟩ => show win1_4.index ⟨(i 0).val * 8 + (i 1).val / 256, ht⟩ (0 : Fin 3) * 1 ≤ (i 0).val ∧ (i 0).val < win1_4.index ⟨(i 0).val * 8 + (i 1).val / 256, ht⟩ (0 : Fin 3) * 1 + 1; rw [g0]; omega
  | ⟨1, _⟩ => show win1_4.index ⟨(i 0).val * 8 + (i 1).val / 256, ht⟩ (1 : Fin 3) * 256 ≤ (i 1).val ∧ (i 1).val < win1_4.index ⟨(i 0).val * 8 + (i 1).val / 256, ht⟩ (1 : Fin 3) * 256 + 256; rw [g1]; omega
  | ⟨2, _⟩ => show win1_4.index ⟨(i 0).val * 8 + (i 1).val / 256, ht⟩ (2 : Fin 3) * 2048 ≤ (i 2).val ∧ (i 2).val < win1_4.index ⟨(i 0).val * 8 + (i 1).val / 256, ht⟩ (2 : Fin 3) * 2048 + 2048; rw [f42]; omega

/-- After the region the context array is the context of the arrays the region found. -/
theorem final3 (c : Dev nD) : (dat1 V c).arrAt 3 cfg1.N = ctxOf (qArr V c) (kArr V c) (vArr V c) :=
  (dat1 V c).arrAt_eq_of_cover 3 _ (fun t _ => flushed3_eq V c t) cover3

/-- After the region the alignment array is the alignment of the arrays the region found. -/
theorem final4 (c : Dev nD) : (dat1 V c).arrAt 4 cfg1.N = alignOf (qArr V c) (kArr V c) :=
  (dat1 V c).arrAt_eq_of_cover 4 _ (fun t _ => flushed4_eq V c t) cover4

end Cert.KernelIdeal.AttnArr

end
-- ==== Proof.LibReshape.lean ====
/-
  A rank-3 array [a, b, c] seen as the matrix [a·b, c] of its rows, and back: read at an index written by coordinates,
  row (i, j) of the array is row i·b + j of the matrix.
-/
import Idealize.ShloMosaic.Lib.ValueIdx
import Idealize.ShloMosaic.Lib.Pipeline.Value

namespace Cert.LibReshape

open Idealize.ShloMosaic Idealize.ShloMosaic.ValueIdx

variable {α : Type}

/-- An `[a, b, c]` array cast to `[n, c]` (n = a·b) reads, at `(r, k)` with `r = i·b + j`, the operand at `(i, j, k)`. -/
theorem shapeCast_3_2_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` matrix (n = a·b) cast to `[a, b, c]` reads, at `(i, j, k)`, the operand at `(r, k)` with `r = i·b + j`. -/
theorem shapeCast_2_3_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.LibReshape
-- ==== Proof.KernelValue.lean ====
/-
  The arrays the attention region finds, read back through the program to the launch memory.
  The host reshapes the values [16, 2048, 1024] to the row array [32768, 1024] and narrows the dense kernel (the
  identity on the extended reals); the projection region leaves the keys and a copy of the rows; the host reshapes both
  back to [16, 2048, 1024]. So the attention region finds the queries as launched, the keys array of the
  specification, and the values as launched — and what it leaves is the specification's alignment and context.
-/
import proofs.«140286_j266287972944_2_alg».proof.Proof.Gen.KernelIdeal.Frame
import proofs.«140286_j266287972944_2_alg».proof.Proof.ProjValue
import proofs.«140286_j266287972944_2_alg».proof.Proof.AttnValue
import proofs.«140286_j266287972944_2_alg».proof.Proof.LibReshape
import proofs.«140286_j266287972944_2_alg».proof.Proof.Spec
import Idealize.ShloMosaic.Lib.StableHlo.Run
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Attn Cert.LibReshape
open Idealize.ShloMosaic.Pipeline (Dat)

variable (m : (ℓ : Loc nD τ sig) → Buf (Elt Ideal) ℓ) (ρ : Dev nD → PrngReg)

/-- The four arguments as launched, as functions into the extended reals. -/
abbrev xq (c : Dev nD) : S16x2048x1024.Idx → EReal := m ((c.tc : Thread nD τ).loc main_arg0)
abbrev xv (c : Dev nD) : S16x2048x1024.Idx → EReal := m ((c.tc : Thread nD τ).loc main_arg1)
abbrev xw (c : Dev nD) : S1024x1024.Idx → EReal := m ((c.tc : Thread nD τ).loc main_arg2)
abbrev xb (c : Dev nD) : S1024.Idx → EReal := m ((c.tc : Thread nD τ).loc main_arg3)

/-! ## What the projection region finds -/

/-- The row array is the values seen as [32768, 1024]. -/
theorem rows_entry (c : Dev nD) :
    ProjArr.rowsArr (V1 m ρ) c = shapeCast S32768x1024 (xv m c) shapeCasts_S16x2048x1024_S32768x1024 := by
  show StableHlo.after hostOps0 (W0 m ρ c) (Proc.devRef .tc main_v1) = _
  after_results
  rfl

/-- The dense kernel, narrowed, is the dense kernel. -/
theorem w_entry (c : Dev nD) : ProjArr.wArr (V1 m ρ) c = xw m c := by
  show StableHlo.after hostOps0 (W0 m ρ c) (Proc.devRef .tc main_v0) = _
  after_results
  rfl

/-- The bias is as launched. -/
theorem b_entry (c : Dev nD) : ProjArr.biasArr (V1 m ρ) c = xb m c := by
  show StableHlo.after hostOps0 (W0 m ρ c) (Proc.devRef .tc main_arg3) = _
  after_results

/-! ## What the attention region finds -/

/-- The queries are as launched: no host operation and no output window of the projection region writes them. -/
theorem q_entry (c : Dev nD) : AttnArr.qArr (V3 m ρ) c = xq m c := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-- The keys array the attention region finds is the specification's. -/
theorem k_entry (c : Dev nD) : AttnArr.kArr (V3 m ρ) c = keys (xv m c) (xw m c) (xb m c) := by
  have h3 : AttnArr.kArr (V3 m ρ) c
      = shapeCast S16x2048x1024 (W2 m ρ c (Proc.devRef .tc main_v2_0)) shapeCasts_S32768x1024_S16x2048x1024 := by
    show StableHlo.after hostOps1 (W2 m ρ c) (Proc.devRef .tc main_v3) = _
    after_results
    rfl
  have h2 : W2 m ρ c (Proc.devRef .tc main_v2_0)
      = ProjArr.keys2d (ProjArr.rowsArr (V1 m ρ) c) (ProjArr.wArr (V1 m ρ) c) (ProjArr.biasArr (V1 m ρ) c) :=
    (W2_arr m ρ c 3).trans (ProjArr.final3 (V1 m ρ) c)
  rw [h3, h2, rows_entry, w_entry, b_entry]
  funext i
  obtain ⟨b, v, u, rfl⟩ : ∃ (b : Fin 16) (v : Fin 2048) (u : Fin 1024), i = ix3 b v u := ⟨i 0, i 1, i 2, eq_ix3 i⟩
  have hr : b.val * 2048 + v.val < 32768 := by omega
  rw [shapeCast_2_3_apply _ _ b v u ⟨b.val * 2048 + v.val, hr⟩ rfl]
  show (∑ d : Fin 1024, shapeCast S32768x1024 (xv m c) shapeCasts_S16x2048x1024_S32768x1024 (ix2 ⟨b.val * 2048 + v.val, hr⟩ d) * xw m c (ix2 d u)) + xb m c (ix1 u)
     = (∑ d : Fin 1024, xv m c (ix3 b v d) * xw m c (ix2 d u)) + xb m c (ix1 u)
  refine congrArg (· + xb m c (ix1 u)) (Finset.sum_congr rfl fun d _ => ?_)
  rw [shapeCast_3_2_apply _ _ b v d ⟨b.val * 2048 + v.val, hr⟩ rfl]

/-- The values array the attention region finds is the values as launched: reshaped to rows, copied, reshaped back. -/
theorem v_entry (c : Dev nD) : AttnArr.vArr (V3 m ρ) c = xv m c := by
  have h3 : AttnArr.vArr (V3 m ρ) c
      = shapeCast S16x2048x1024 (W2 m ρ c (Proc.devRef .tc main_v2_1)) shapeCasts_S32768x1024_S16x2048x1024 := by
    show StableHlo.after hostOps1 (W2 m ρ c) (Proc.devRef .tc main_v4) = _
    after_results
    rfl
  have h2 : W2 m ρ c (Proc.devRef .tc main_v2_1) = ProjArr.rowsArr (V1 m ρ) c :=
    (W2_arr m ρ c 4).trans (ProjArr.final4 (V1 m ρ) c)
  rw [h3, h2, rows_entry]
  exact shapeCast_shapeCast _ _ _

/-! ## What the program leaves -/

/-- The alignment array after the run is the specification's. -/
theorem align_final (c : Dev nD) :
    (dat1 (V3 m ρ) c).arrAt 4 cfg1.N = alignment (xq m c) (xv m c) (xw m c) (xb m c) := by
  rw [AttnArr.final4, q_entry, k_entry]
  exact alignOf_keys _ _ _ _

/-- The context array after the run is the specification's. -/
theorem ctx_final (c : Dev nD) :
    (dat1 (V3 m ρ) c).arrAt 3 cfg1.N = context (xq m c) (xv m c) (xw m c) (xb m c) := by
  rw [AttnArr.final3, q_entry, k_entry, v_entry]
  exact ctxOf_keys _ _ _ _

end Cert.KernelIdeal.Whole

end
-- ==== Proof.RefIsSpec.lean ====
/-
  The reference program's two results are the specification's alignment and context arrays. Read one operation at a
  time at an index: the dense layer's product plus the broadcast bias is the key; the batched product of the queries
  with the keys is the score; the reduction with `maximum` from −∞, joined once more with −∞, is the row's maximum;
  `exponential` of the difference, the row sum from zero and the quotient are the row's softmax; the batched product
  of the alignment with the values is the context.
-/
import proofs.«140286_j266287972944_2_alg».proof.Proof.Gen.ReferenceIdeal.Read
import proofs.«140286_j266287972944_2_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 : (⟨S16x2048x1024, .f32⟩ : BufTy).Contents (Elt Ideal)) (x2 : (⟨S1024x1024, .f32⟩ : BufTy).Contents (Elt Ideal))
  (x3 : (⟨S1024, .f32⟩ : BufTy).Contents (Elt Ideal))

/-- The dense layer's result at (b, v, u) is the key. -/
theorem key_apply (b : Fin 16) (v : Fin 2048) (u : Fin 1024) :
    val_main_v3 (F := Ideal) x1 x2 x3 (ix3 b v u) = keyAt x1 x2 x3 b v u := by
  have el : ∀ k : Fin 1024, lidx_main_v0 (ix3 b v u) k = ix3 b v k := fun k => funext fun a => Fin.ext (by
    match a with | ⟨0, _⟩ => rfl | ⟨1, _⟩ => rfl | ⟨2, _⟩ => rfl)
  have er : ∀ k : Fin 1024, ridx_main_v0 (ix3 b v u) k = ix2 k u := fun k => funext fun a => Fin.ext (by
    match a with | ⟨0, _⟩ => rfl | ⟨1, _⟩ => rfl)
  have eb : idx_main_v1 (idx_main_v2 (ix3 b v u)) = ix1 u := funext fun a => Fin.ext (by
    match a with | ⟨0, _⟩ => rfl)
  rw [val_main_v3_apply, val_main_v0_apply, val_main_v2_apply, val_main_v1_apply, eb]
  simp only [el, er]
  rfl

/-- The batched product of the queries with the keys at (b, q, v) is the score. -/
theorem score_apply (b : Fin 16) (q v : Fin 2048) :
    val_main_v4 (F := Ideal) x0 x1 x2 x3 (ix3 b q v) = scoreAt x0 x1 x2 x3 b q v := by
  have el : ∀ k : Fin 1024, lidx_main_v4 (ix3 b q v) k = ix3 b q k := fun k => funext fun a => Fin.ext (by
    match a with | ⟨0, _⟩ => rfl | ⟨1, _⟩ => rfl | ⟨2, _⟩ => rfl)
  have er : ∀ k : Fin 1024, ridx_main_v4 (ix3 b q v) k = ix3 b v k := fun k => funext fun a => Fin.ext (by
    match a with | ⟨0, _⟩ => rfl | ⟨1, _⟩ => rfl | ⟨2, _⟩ => rfl)
  rw [val_main_v4_apply]
  unfold scoreAt
  refine Finset.sum_congr rfl fun k _ => ?_
  rw [el, er, key_apply]

/-- The row maximum the reference subtracts, at (b, q). -/
theorem top_apply (b : Fin 16) (q : Fin 2048) :
    val_main_v7 (F := Ideal) x0 x1 x2 x3 (ix2 b q) = rowTop (fun v => scoreAt x0 x1 x2 x3 b q v) := by
  have hred : S16x2048x2048.Reduces [2] S16x2048 := by decide
  have e : ∀ v : Fin 2048, hred.lift (ix2 b q) v = ix3 b q v := fun v => funext fun a => Fin.ext (by
    match a with | ⟨0, _⟩ => rfl | ⟨1, _⟩ => rfl | ⟨2, _⟩ => rfl)
  have h5 : val_main_v5 (F := Ideal) x0 x1 x2 x3 (ix2 b q) = rowTop (fun v => scoreAt x0 x1 x2 x3 b q v) := by
    unfold val_main_v5
    refine (Host.reduce_eq_fold_single (FloatOps.maximumf (F := Ideal) (φ := .f32)) (val_main_v4 (F := Ideal) x0 x1 x2 x3) (val_main_cst (F := Ideal)) reducesTo_S16x2048x2048_S16x2048_d2 hred h_S_ (ix2 b q)).trans ?_
    unfold rowTop
    refine congrArg (Finset.univ.fold max negInf) (funext fun v => ?_)
    exact (congrArg (val_main_v4 (F := Ideal) x0 x1 x2 x3) (e v)).trans (score_apply x0 x1 x2 x3 b q v)
  rw [val_main_v7_apply, h5, val_main_v6_apply]
  exact max_fold_max _ _ _

/-- The reference's shifted exponential at (b, q, v). -/
theorem exp_apply (b : Fin 16) (q v : Fin 2048) :
    val_main_v11 (F := Ideal) x0 x1 x2 x3 (ix3 b q v) = rowExp (fun v' => scoreAt x0 x1 x2 x3 b q v') v := by
  have e : idx_main_v8 (idx_main_v9 (ix3 b q v)) = ix2 b q := funext fun a => Fin.ext (by
    match a with | ⟨0, _⟩ => rfl | ⟨1, _⟩ => rfl)
  rw [val_main_v11_apply, val_main_v10_apply, val_main_v9_apply, val_main_v8_apply, e, top_apply, score_apply]
  rfl

/-- The reference's row sum at (b, q). -/
theorem mass_apply (b : Fin 16) (q : Fin 2048) :
    val_main_v12 (F := Ideal) x0 x1 x2 x3 (ix2 b q) = rowMass (fun v' => scoreAt x0 x1 x2 x3 b q v') := by
  have e : ∀ k : Fin 2048, idx_main_v12 (ix2 b q) k = ix3 b q k := fun k => funext fun a => Fin.ext (by
    match a with | ⟨0, _⟩ => rfl | ⟨1, _⟩ => rfl | ⟨2, _⟩ => rfl)
  rw [val_main_v12_apply, val_main_cst_1_apply]
  show Ideal.ofBits .f32 0x00000000#32 + _ = _
  rw [Ideal.ofBits_zero_f32, zero_add]
  unfold rowMass
  refine Finset.sum_congr rfl fun k _ => ?_
  rw [e, exp_apply]

/-- The reference's alignment at (b, q, v). -/
theorem prob_apply (b : Fin 16) (q v : Fin 2048) :
    val_main_v15 (F := Ideal) x0 x1 x2 x3 (ix3 b q v) = probAt x0 x1 x2 x3 b q v := by
  have e : idx_main_v13 (idx_main_v14 (ix3 b q v)) = ix2 b q := funext fun a => Fin.ext (by
    match a with | ⟨0, _⟩ => rfl | ⟨1, _⟩ => rfl)
  rw [val_main_v15_apply, val_main_v14_apply, val_main_v13_apply, e, mass_apply, exp_apply]
  rfl

/-- The reference's context at (b, q, d). -/
theorem ctx_apply (b : Fin 16) (q : Fin 2048) (d : Fin 1024) :
    val_main_v16 (F := Ideal) x0 x1 x2 x3 (ix3 b q d) = ctxAt x0 x1 x2 x3 b q d := by
  have el : ∀ k : Fin 2048, lidx_main_v16 (ix3 b q d) k = ix3 b q k := fun k => funext fun a => Fin.ext (by
    match a with | ⟨0, _⟩ => rfl | ⟨1, _⟩ => rfl | ⟨2, _⟩ => rfl)
  have er : ∀ k : Fin 2048, ridx_main_v16 (ix3 b q d) k = ix3 b k d := fun k => funext fun a => Fin.ext (by
    match a with | ⟨0, _⟩ => rfl | ⟨1, _⟩ => rfl | ⟨2, _⟩ => rfl)
  rw [val_main_v16_apply]
  unfold ctxAt
  refine Finset.sum_congr rfl fun k _ => ?_
  rw [el, er, prob_apply]

/-- The reference's second result is the alignment array. -/
theorem alignment_eq : val_main_v15 (F := Ideal) x0 x1 x2 x3 = alignment x0 x1 x2 x3 := by
  funext i
  obtain ⟨b, q, v, rfl⟩ : ∃ (b : Fin 16) (q v : Fin 2048), i = ix3 b q v := ⟨i 0, i 1, i 2, eq_ix3 i⟩
  exact prob_apply x0 x1 x2 x3 b q v

/-- The reference's first result is the context array. -/
theorem context_eq : val_main_v16 (F := Ideal) x0 x1 x2 x3 = context x0 x1 x2 x3 := by
  funext i
  obtain ⟨b, q, d, rfl⟩ : ∃ (b : Fin 16) (q : Fin 2048) (d : Fin 1024), i = ix3 b q d := ⟨i 0, i 1, i 2, eq_ix3 i⟩
  exact ctx_apply x0 x1 x2 x3 b q d

end Cert.ReferenceIdeal.RefValue

end
-- ==== Proof.lean ====
/-
  Luong attention in two pipelined kernels against its jnp reference, over the extended reals.

  Both programs compute, from queries q, values x, a dense kernel W and its bias β,
    key(b, v, u) = Σ_d x(b, v, d) · W(d, u) + β(u),   score(b, q, v) = Σ_u q(b, q, u) · key(b, v, u),
    alignment(b, q, ·) = the softmax of the row score(b, q, ·),   context(b, q, d) = Σ_v alignment(b, q, v) · x(b, v, d).
  The kernel side narrows operands to bf16 before each product (the identity on the extended reals), views the values
  as a matrix of rows for the projection and back, tiles the rows over a grid, and takes each row's maximum from −∞ where
  the reference joins its row maximum with −∞ once more (no change, a maximum taken from −∞ being at least −∞). Sums are
  over the same index sets in both programs, so no law that needs finite entries is used: the precondition is never opened.

  The three frames are the generated ones (the reference's is its generated run with the results dropped); the
  idealization rewrote nothing, so `preserves` is `True`; the value claim sets the kernel's run, read back through
  both regions to the launch memory (Proof/KernelValue.lean), beside the reference's run read one operation at a time
  (Proof/RefIsSpec.lean), both at the specification's two arrays (Proof/Spec.lean).
-/
import proofs.«140286_j266287972944_2_alg».proof.Defs
import proofs.«140286_j266287972944_2_alg».proof.Proof.Gen.Kernel
import proofs.«140286_j266287972944_2_alg».proof.Proof.Gen.Kernel.Skeleton
import proofs.«140286_j266287972944_2_alg».proof.Proof.Gen.Kernel.Launch
import proofs.«140286_j266287972944_2_alg».proof.Proof.Gen.Kernel.Points
import proofs.«140286_j266287972944_2_alg».proof.Proof.Gen.Kernel.Frame
import proofs.«140286_j266287972944_2_alg».proof.Proof.Gen.KernelIdeal
import proofs.«140286_j266287972944_2_alg».proof.Proof.Gen.KernelIdeal.Skeleton
import proofs.«140286_j266287972944_2_alg».proof.Proof.Gen.KernelIdeal.Launch
import proofs.«140286_j266287972944_2_alg».proof.Proof.Gen.KernelIdeal.Points
import proofs.«140286_j266287972944_2_alg».proof.Proof.Gen.KernelIdeal.Frame
import proofs.«140286_j266287972944_2_alg».proof.Proof.Gen.ReferenceIdeal
import proofs.«140286_j266287972944_2_alg».proof.Proof.Gen.ReferenceIdeal.Run
import proofs.«140286_j266287972944_2_alg».proof.Proof.Gen.ReferenceIdeal.Read
import proofs.«140286_j266287972944_2_alg».proof.Proof.Gen.Pre_finite_inputs
import proofs.«140286_j266287972944_2_alg».proof.Proof.Spec
import proofs.«140286_j266287972944_2_alg».proof.Proof.KernelRun
import proofs.«140286_j266287972944_2_alg».proof.Proof.KernelValue
import proofs.«140286_j266287972944_2_alg».proof.Proof.RefIsSpec
import Idealize.ShloMosaic.Adequacy
import Idealize.ShloMosaic.Init

noncomputable section

namespace Cert.Proof

open Idealize.ShloMosaic Idealize.ShloMosaic.TcCoe Idealize.SL.Sem Cert.Attn

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the four arguments both programs end with the context and the alignment of the
    specification: the kernel by its run read back through its two regions, the reference by its run read one
    operation at a time. -/
theorem algebraic : Cert.algebraic_KernelIdeal_ReferenceIdeal := by
  intro m ρ m' ρ' _ hagree
  refine ⟨fun c => context (Cert.KernelIdeal.Whole.xq m c) (Cert.KernelIdeal.Whole.xv m c) (Cert.KernelIdeal.Whole.xw m c) (Cert.KernelIdeal.Whole.xb m c),
    fun c => alignment (Cert.KernelIdeal.Whole.xq m c) (Cert.KernelIdeal.Whole.xv m c) (Cert.KernelIdeal.Whole.xw m c) (Cert.KernelIdeal.Whole.xb m c), ?_, ?_⟩
  · exact (θ_run Cert.KernelIdeal.defs _ _).mono
      (fun r h c => ⟨(h c).1.trans (Cert.KernelIdeal.Whole.ctx_final m ρ c), (h c).2.1.trans (Cert.KernelIdeal.Whole.align_final m ρ c), (h c).2.2⟩)
      (Cert.KernelIdeal.Named.run m ρ)
  · refine (θ_run Cert.ReferenceIdeal.defs _ _).mono (fun _ h c => ⟨?_, ?_, (h c).2.2⟩)
      (Cert.ReferenceIdeal.Value.run (F := Ideal) m' ρ')
    · refine (h c).1.trans ((Cert.ReferenceIdeal.Read.val_main_v16_eq (F := Ideal) _ _ _ _).trans
        ((Cert.ReferenceIdeal.RefValue.context_eq _ _ _ _).trans ?_))
      rw [(hagree c).1, (hagree c).2.1, (hagree c).2.2.1, (hagree c).2.2.2]
    · refine (h c).2.1.trans ((Cert.ReferenceIdeal.Read.val_main_v15_eq (F := Ideal) _ _ _ _).trans
        ((Cert.ReferenceIdeal.RefValue.alignment_eq _ _ _ _).trans ?_))
      rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
